-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S50000x256 .f32) (main_arg1 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S50000x256 : Shape := ⟨2, ![50000, 256]⟩
abbrev S256x256 : Shape := ⟨2, ![256, 256]⟩
abbrev S14848x256 : Shape := ⟨2, ![14848, 256]⟩

abbrev nBuf : Space → Nat
  | .hbm => 3
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S50000x256, .f32⟩
  | .local _ .vmem, ⟨0, _⟩ => ⟨S14848x256, .f32⟩
  | .local _ .vmem, ⟨1, _⟩ => ⟨S14848x256, .f32⟩
  | .local _ .vmem, ⟨2, _⟩ => ⟨S256x256, .f32⟩
  | .local _ .vmem, ⟨3, _⟩ => ⟨S14848x256, .f32⟩
  | .local _ .vmem, ⟨4, _⟩ => ⟨S14848x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14848x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S14848x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S14848x256_S14848x256_0_0 : ∀ a, (![0, 0] : Fin 2 → Nat) a + S14848x256.size a ≤ S14848x256.size a
  h_S14848x256 : 0 < S14848x256.numel
  inb_S256x256_S256x256_0_0 : ∀ a, (![0, 0] : Fin 2 → Nat) a + S256x256.size a ≤ S256x256.size a
  h_S256x256 : 0 < S256x256.numel
  dot_S14848x256_S256x256_S14848x256_1_1_0_0_n_n_wf : DotDims.WF S14848x256 S256x256 S14848x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S14848x256.size a < S50000x256.size a
  hwx0_0 : ∀ i : grid0.Coords, EltTy.bits .f32 = 32 ∨ (Rect.unit (s := S50000x256) (fun a => cc0_transform_0 i a * S14848x256.size a) (fun a => (Pipeline.Clip.of (cc0_transform_0 i a) (S14848x256.size a) (S50000x256.size a)).extent (S14848x256.size a)) fun a => Pipeline.Clip.inb (Pipeline.Clip.ok_of (hstart0_0 i a))).WholeWords (EltTy.packing .f32)
  hwxs0_0 : ∀ i : grid0.Coords, EltTy.bits .f32 = 32 ∨ (Rect.unit (s := S14848x256) (fun _ => 0) (fun a => (Pipeline.Clip.of (cc0_transform_0 i a) (S14848x256.size a) (S50000x256.size a)).extent (S14848x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S14848x256.size a < S50000x256.size a
  hwx0_2 : ∀ i : grid0.Coords, EltTy.bits .f32 = 32 ∨ (Rect.unit (s := S50000x256) (fun a => cc0_transform_2 i a * S14848x256.size a) (fun a => (Pipeline.Clip.of (cc0_transform_2 i a) (S14848x256.size a) (S50000x256.size a)).extent (S14848x256.size a)) fun a => Pipeline.Clip.inb (Pipeline.Clip.ok_of (hstart0_2 i a))).WholeWords (EltTy.packing .f32)
  hwxs0_2 : ∀ i : grid0.Coords, EltTy.bits .f32 = 32 ∨ (Rect.unit (s := S14848x256) (fun _ => 0) (fun a => (Pipeline.Clip.of (cc0_transform_2 i a) (S14848x256.size a) (S50000x256.size a)).extent (S14848x256.size a)) fun a => (Nat.zero_add _).trans_le (Pipeline.Clip.extent_le (Pipeline.Clip.ok_of (hstart0_2 i a)))).WholeWords (EltTy.packing .f32)

variable [Facts₀]

def dot_S14848x256_S256x256_S14848x256_1_1_0_0_n_n : DotDims S14848x256 S256x256 S14848x256 where
  lhsContracting := [1]
  rhsContracting := [1]
  lhsNonContracting := [0]
  rhsNonContracting := [0]
  lhsBatch := []
  rhsBatch := []
  wf := dot_S14848x256_S256x256_S14848x256_1_1_0_0_n_n_wf

abbrev win0_0 : Pipeline.Window sig grid0 :=
  Pipeline.Window.ofSpecClip (Memref.whole main_arg0) S14848x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S14848x256.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256x256, .f32⟩
  | .hbm, ⟨3, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S256x256_S256x256_1_0 : S256x256.Transposes [1, 0] S256x256
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.BodyBits.lean ====
/-
  The kernel body of the row-blocked linear layer, run once on whole staging memrefs, at any float instance.

  The body loads its whole x-block (14848 rows of 256 features) and the whole weight block (256 x 256), multiplies
  them on the matrix unit into a zero accumulator — contracting the FEATURE axis of both, so the weights are used
  untransposed —, loads the result's buffer (a value nothing uses) and stores the product over the whole result
  buffer. So the result's buffer ends holding the product of what the two input buffers hold, and those are
  unchanged. Nothing here depends on which rows of the x-block lie inside the array: that is the proof data's
  business.
-/
import proofs.«111519_g738734375753_cont_9to1_m_264_20_alg».proof.Proof.Gen.Kernel.Launch
import proofs.«111519_g738734375753_cont_9to1_m_264_20_alg».proof.Proof.Gen.Kernel.Skeleton
import proofs.«111519_g738734375753_cont_9to1_m_264_20_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole x-block (and result block) as an access: offsets zero, the buffer's own extents. -/
abbrev rowsRect : Rect S14848x256 := Rect.unit (s := S14848x256) ![0, 0] S14848x256.size inb_S14848x256_S14848x256_0_0
/-- The whole weight block as an access. -/
abbrev weightRect : Rect S256x256 := Rect.unit (s := S256x256) ![0, 0] S256x256.size inb_S256x256_S256x256_0_0

theorem zero_offsets : (![0, 0] : Fin 2 → Nat) = fun _ => 0 := funext fun a => by fin_cases a <;> rfl

/-- What the result's buffer holds after the body, from what the two input buffers hold: its one store, of the
    product of the two loads. -/
def product (x0 : Vec F S14848x256 .f32) (x1 : Vec F S256x256 .f32) : Vec F S14848x256 .f32 :=
  View.canon [⟨rowsRect, k0_pay1 (View.ld x0 rowsRect) (View.ld x1 weightRect)⟩]

/-- The accesses are the whole buffers, so that is the product of the buffers' contents themselves. -/
theorem product_eq (x0 : Vec F S14848x256 .f32) (x1 : Vec F S256x256 .f32) : product x0 x1 = k0_pay1 x0 x1 := by
  unfold product
  rw [View.canon_unit_zero zero_offsets, View.ld_unit_zero zero_offsets, View.ld_unit_zero zero_offsets]

/-- The one store covers the result's buffer. -/
theorem product_covers (p0 : Vec F S14848x256 .f32) (y : S14848x256.Idx) :
    ∃ pc ∈ ([⟨rowsRect, p0⟩] : List (View.Piece (Elt F) S14848x256 .f32)), y ∈ pc.1.set :=
  ⟨⟨rowsRect, p0⟩, List.mem_singleton_self _, View.mem_set_unit_zero zero_offsets inb_S14848x256_S14848x256_0_0 y⟩

set_option maxHeartbeats 1000000 in
/-- The body on whole staging memrefs, the inputs' at contents `x0`, `x1` and the result's at anything, runs to the
    continuation holding the inputs' as they were and the result's at their product. -/
theorem sound_kernel (c : Dev nD) (E : Set ℕ) (i : grid0.Coords) (arg1 : Memref sig .tc .vmem S14848x256 .f32) (harg1 : arg1.IsWhole)
    (arg2 : Memref sig .tc .vmem S256x256 .f32) (harg2 : arg2.IsWhole) (arg3 : Memref sig .tc .vmem S14848x256 .f32) (harg3 : arg3.IsWhole)
    (x0 : Vec F S14848x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (product x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_covers _)

end Cert.Kernel.Body

end
-- ==== Proof.FrameBits.lean ====
/-
  The frame of the printed kernel: it runs to the end, faults nowhere and leaves `x` and the weights unchanged.

  The grid has four points; point `t` stages rows 14848·t … of `x` and of the result, and the whole weight
  matrix once. 4 · 14848 exceeds 50000, so the last block overhangs the arrays: its fetch lands the 5456 rows inside
  `x` at the head of the staging buffer over contents nothing names, and its write-back writes only those rows of the
  result. The body multiplies the WHOLE staging block, unnamed rows too, so what it leaves in the result's buffer
  is not a function of `x` alone; the frame does not need it: nothing reads the result's buffer again, and the
  proof data forget it. Of `x`'s buffer only the rows inside the array are stated (they are the block), of the
  weights' buffer all (it is the matrix, fetched at the first point and left in place).
-/
import proofs.«111519_g738734375753_cont_9to1_m_264_20_alg».proof.Proof.BodyBits
import proofs.«111519_g738734375753_cont_9to1_m_264_20_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window: what the body leaves in its buffer is not named. -/
def forgets : Fin 3 → Bool := fun w => w.val == 2

/-- The proof data on core `c`: the arrays as launched; after the body `x`'s buffer at its block (filled out past
    the array's end with a word nothing reads), the weights' at the matrix, the result's not named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) :
    (dats m 0 c).after 0 t = win0_0.fill (grid0.coords t) (fun _ => Scalar.ofBits .f32 0#32) (iblk m c 0 t) := by dsimp only [dats]
theorem after_weights (c : Dev nD) (t : Fin cfg0.N) : (dats m 0 c).after 1 t = iblk m c 1 t := by dsimp only [dats]

/-- `x`'s buffer is fetched at every point: it holds the block on the rows inside the array, `d` past them. -/
theorem before_rows (c : Dev nD) (t : Fin cfg0.N) (d) :
    (dats m 0 c).before 0 t d = win0_0.fill (grid0.coords t) d (iblk m c 0 t) := by
  unfold Dat.before; rw [if_pos (fetch0_0 t)]; rfl
/-- The weights' buffer holds the matrix at every point, fetched there or not. -/
theorem before_weights (c : Dev nD) (t : Fin cfg0.N) (d) : (dats m 0 c).before 1 t d = iblk m c 1 t :=
  before0_1_of m (dats m 0 c) (A_eq m c 1) (after_weights m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: `x`'s buffer stated on the rows inside the array, the result's not at all. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weights]
  rw [show (dats m 0 c).Φ t.succ = (dats m 0 c).Φ t.castSucc from rfl,
    show (dats m 0 c).owesAt () t.succ = (dats m 0 c).owesAt () t.castSucc from rfl,
    after_rows, after_weights, win0_0.cut_fill]
  iintro ⟨HΦ, Ho, ⟨%d0, H0⟩, ⟨%d1, H1⟩, ⟨%d2, H2⟩⟩
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists _; iexact H2

/-- The library's body obligation, the result's window forgotten. -/
theorem body_obligation (c : Dev nD) :
    BodyObligationLoose (dats (F := F) m 0 c) (defs₀ (F := F)) Variants.none () Set.univ forgets := fun t => by
  rw [bigSep_W0, bigSep_W0]
  exact sound_body m c t

set_option backward.isDefEq.respectTransparency.types false in
/-- Every weakly fair execution of @main terminates, each input array of the pipeline at its entry contents. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame claim's post: `x` and the weights end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 1 rfl _) _) ((h c).1 1)).trans ((A_eq m c 1).trans (V_main_arg1 m c))⟩)
    (run_main m ρ)

end Cert.Kernel.Body

end
-- ==== Proof.BodyIdeal.lean ====
/-
  The kernel body of the row-blocked linear layer, run once on whole staging memrefs, at any float instance.

  The body loads its whole x-block (14848 rows of 256 features) and the whole weight block (256 x 256), multiplies
  them on the matrix unit into a zero accumulator — contracting the FEATURE axis of both, so the weights are used
  untransposed —, loads the result's buffer (a value nothing uses) and stores the product over the whole result
  buffer. So the result's buffer ends holding the product of what the two input buffers hold, and those are
  unchanged. Nothing here depends on which rows of the x-block lie inside the array: that is the proof data's
  business.
-/
import proofs.«111519_g738734375753_cont_9to1_m_264_20_alg».proof.Proof.Gen.KernelIdeal.Launch
import proofs.«111519_g738734375753_cont_9to1_m_264_20_alg».proof.Proof.Gen.KernelIdeal.Skeleton
import proofs.«111519_g738734375753_cont_9to1_m_264_20_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole x-block (and result block) as an access: offsets zero, the buffer's own extents. -/
abbrev rowsRect : Rect S14848x256 := Rect.unit (s := S14848x256) ![0, 0] S14848x256.size inb_S14848x256_S14848x256_0_0
/-- The whole weight block as an access. -/
abbrev weightRect : Rect S256x256 := Rect.unit (s := S256x256) ![0, 0] S256x256.size inb_S256x256_S256x256_0_0

theorem zero_offsets : (![0, 0] : Fin 2 → Nat) = fun _ => 0 := funext fun a => by fin_cases a <;> rfl

/-- What the result's buffer holds after the body, from what the two input buffers hold: its one store, of the
    product of the two loads. -/
def product (x0 : Vec F S14848x256 .f32) (x1 : Vec F S256x256 .f32) : Vec F S14848x256 .f32 :=
  View.canon [⟨rowsRect, k0_pay1 (View.ld x0 rowsRect) (View.ld x1 weightRect)⟩]

/-- The accesses are the whole buffers, so that is the product of the buffers' contents themselves. -/
theorem product_eq (x0 : Vec F S14848x256 .f32) (x1 : Vec F S256x256 .f32) : product x0 x1 = k0_pay1 x0 x1 := by
  unfold product
  rw [View.canon_unit_zero zero_offsets, View.ld_unit_zero zero_offsets, View.ld_unit_zero zero_offsets]

/-- The one store covers the result's buffer. -/
theorem product_covers (p0 : Vec F S14848x256 .f32) (y : S14848x256.Idx) :
    ∃ pc ∈ ([⟨rowsRect, p0⟩] : List (View.Piece (Elt F) S14848x256 .f32)), y ∈ pc.1.set :=
  ⟨⟨rowsRect, p0⟩, List.mem_singleton_self _, View.mem_set_unit_zero zero_offsets inb_S14848x256_S14848x256_0_0 y⟩

set_option maxHeartbeats 1000000 in
/-- The body on whole staging memrefs, the inputs' at contents `x0`, `x1` and the result's at anything, runs to the
    continuation holding the inputs' as they were and the result's at their product. -/
theorem sound_kernel (c : Dev nD) (E : Set ℕ) (i : grid0.Coords) (arg1 : Memref sig .tc .vmem S14848x256 .f32) (harg1 : arg1.IsWhole)
    (arg2 : Memref sig .tc .vmem S256x256 .f32) (harg2 : arg2.IsWhole) (arg3 : Memref sig .tc .vmem S14848x256 .f32) (harg3 : arg3.IsWhole)
    (x0 : Vec F S14848x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (product x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_covers _)

end Cert.KernelIdeal.Body

end
-- ==== Proof.ProductIdeal.lean ====
/-
  The matrix product of the kernel body, read at one entry of the block over the extended reals: entry `(r, o)` is
  Σ_{k < 256} xblock (r, k) · wblock (o, k) — the zero accumulator adds nothing, and the one contracted axis is the
  feature axis of both factors. Row `r` of the product reads row `r` of the left factor and no other.
-/
import proofs.«111519_g738734375753_cont_9to1_m_264_20_alg».proof.Proof.BodyIdeal
import Idealize.ShloMosaic.PureOps.Ideal.Laws
import Idealize.ShloMosaic.Lib.ValueIdx

noncomputable section

namespace Cert.KernelIdeal.Body

open Cert.KernelIdeal Cert.KernelIdeal.Gen
open Idealize.ShloMosaic

/-! ## The product at an entry of the block -/

/-- Entry `k` of the x-block's row that block entry `j` lies in. -/
def rowAt (j : S14848x256.Idx) (k : Fin 256) : S14848x256.Idx := fun a => match a with
  | ⟨0, _⟩ => ⟨(j 0).val, (j 0).isLt⟩
  | ⟨1, _⟩ => ⟨k.val, k.isLt⟩
/-- Entry `k` of the weight row of block entry `j`'s output feature. -/
def weightRowAt (j : S14848x256.Idx) (k : Fin 256) : S256x256.Idx := fun a => match a with
  | ⟨0, _⟩ => ⟨(j 1).val, (j 1).isLt⟩
  | ⟨1, _⟩ => ⟨k.val, k.isLt⟩

theorem lhs_row (i : S14848x256.Idx) (q : dot_S14848x256_S256x256_S14848x256_1_1_0_0_n_n.contr.Idx) :
    (dot_S14848x256_S256x256_S14848x256_1_1_0_0_n_n.lhsIdx i q 0).val = (i 0).val := by
  unfold DotDims.lhsIdx
  rw [dif_neg (show ¬(0 : Fin S14848x256.rank) ∈ dot_S14848x256_S256x256_S14848x256_1_1_0_0_n_n.lhsBatch by decide),
    dif_pos (show (0 : Fin S14848x256.rank) ∈ dot_S14848x256_S256x256_S14848x256_1_1_0_0_n_n.lhsNonContracting by decide)]
  rfl
theorem lhs_feature (i : S14848x256.Idx) (q : dot_S14848x256_S256x256_S14848x256_1_1_0_0_n_n.contr.Idx) :
    (dot_S14848x256_S256x256_S14848x256_1_1_0_0_n_n.lhsIdx i q 1).val = (q ⟨0, by decide⟩).val :=
  dot_S14848x256_S256x256_S14848x256_1_1_0_0_n_n.lhsIdx_val_of_single rfl i q
theorem rhs_row (i : S14848x256.Idx) (q : dot_S14848x256_S256x256_S14848x256_1_1_0_0_n_n.contr.Idx) :
    (dot_S14848x256_S256x256_S14848x256_1_1_0_0_n_n.rhsIdx i q 0).val = (i 1).val := by
  unfold DotDims.rhsIdx
  rw [dif_neg (show ¬(0 : Fin S256x256.rank) ∈ dot_S14848x256_S256x256_S14848x256_1_1_0_0_n_n.rhsBatch by decide),
    dif_pos (show (0 : Fin S256x256.rank) ∈ dot_S14848x256_S256x256_S14848x256_1_1_0_0_n_n.rhsNonContracting by decide)]
  rfl
theorem rhs_feature (i : S14848x256.Idx) (q : dot_S14848x256_S256x256_S14848x256_1_1_0_0_n_n.contr.Idx) :
    (dot_S14848x256_S256x256_S14848x256_1_1_0_0_n_n.rhsIdx i q 1).val = (q ⟨0, by decide⟩).val :=
  dot_S14848x256_S256x256_S14848x256_1_1_0_0_n_n.rhsIdx_val_of_single rfl i q

/-- The body's product at block entry `j`: the zero accumulator adds nothing, and the contraction runs over the
    256 features of row `j 0` of the x-block and of row `j 1` of the weights. -/
theorem product_apply (x0 : FVec Ideal S14848x256 .f32) (x1 : FVec Ideal S256x256 .f32) (j : S14848x256.Idx) :
    k0_pay1 (F := Ideal) x0 x1 j = ∑ k : Fin 256, x0 (rowAt j k) * x1 (weightRowAt j k) := by
  unfold k0_pay1
  refine (Ideal.matmul_constant_zero_apply (φ₁ := .f32) (φ₂ := .f32) dot_S14848x256_S256x256_S14848x256_1_1_0_0_n_n none x0 x1 j).trans ?_
  rw [← Equiv.sum_comp (ValueIdx.contrEquiv1 dot_S14848x256_S256x256_S14848x256_1_1_0_0_n_n 256 rfl rfl).symm]
  refine Finset.sum_congr rfl fun k _ => ?_
  have hk := ValueIdx.contrEquiv1_symm_val dot_S14848x256_S256x256_S14848x256_1_1_0_0_n_n 256 rfl rfl k
  have el : dot_S14848x256_S256x256_S14848x256_1_1_0_0_n_n.lhsIdx j
      ((ValueIdx.contrEquiv1 dot_S14848x256_S256x256_S14848x256_1_1_0_0_n_n 256 rfl rfl).symm k) = rowAt j k :=
    funext fun a => Fin.ext (by
      match a with
      | ⟨0, _⟩ => exact lhs_row _ _
      | ⟨1, _⟩ => exact (lhs_feature _ _).trans hk)
  have er : dot_S14848x256_S256x256_S14848x256_1_1_0_0_n_n.rhsIdx j
      ((ValueIdx.contrEquiv1 dot_S14848x256_S256x256_S14848x256_1_1_0_0_n_n 256 rfl rfl).symm k) = weightRowAt j k :=
    funext fun a => Fin.ext (by
      match a with
      | ⟨0, _⟩ => exact rhs_row _ _
      | ⟨1, _⟩ => exact (rhs_feature _ _).trans hk)
  rw [el, er]

end Cert.KernelIdeal.Body

end
-- ==== Proof.Linear.lean ====
/-
  The bias-free linear layer as ONE function of the two argument arrays, over the extended reals:

      linear x W (r, o) = Σ_{k < 256} x (r, k) · W (o, k)        r < 50000,  o < 256

  Row `r` of the result is row `r` of `x` against every row `o` of the weights, the shared feature axis `k`
  summed. Both programs compute it: the reference as `x @ Wᵀ` (a transpose, then a product contracting the
  features of `x` with the FIRST axis of the transposed weights), the kernel block of rows by block of rows with the
  weights untransposed (a product contracting the second axis of both). No law of the extended reals is needed
  to join them beyond reading each product as its sum: the terms and their order are the same.
-/
import Idealize.ShloMosaic.PureOps.Ideal
import Idealize.ShloMosaic.Lib.ValueIdx

noncomputable section

namespace Cert.Linear

open Idealize.ShloMosaic

/-- The arrays' shapes: 50000 rows of 256 features; 256 output features by 256 input features. -/
abbrev Rows : Shape := ⟨2, ![50000, 256]⟩
abbrev Weights : Shape := ⟨2, ![256, 256]⟩

/-- Entry `k` of the row of `x` that result entry `i` lies in. -/
def xAt (i : Rows.Idx) (k : Fin 256) : Rows.Idx := fun a => match a with
  | ⟨0, _⟩ => ⟨(i 0).val, (i 0).isLt⟩
  | ⟨1, _⟩ => ⟨k.val, k.isLt⟩

/-- Entry `k` of the weight row of result entry `i`'s output feature. -/
def wAt (i : Rows.Idx) (k : Fin 256) : Weights.Idx := fun a => match a with
  | ⟨0, _⟩ => ⟨(i 1).val, (i 1).isLt⟩
  | ⟨1, _⟩ => ⟨k.val, k.isLt⟩

/-- `x @ Wᵀ`, entry by entry. -/
def linear (x : Rows.Idx → EReal) (W : Weights.Idx → EReal) : Rows.Idx → EReal :=
  fun i => ∑ k : Fin 256, x (xAt i k) * W (wAt i k)

end Cert.Linear

end
-- ==== Proof.ValueIdeal.lean ====
/-
  The idealized kernel's run and what its result array ends holding: `linear x W`.

  At the ideal instance the matrix product of the staged x-block and the weight block, read at entry `(r, o)` of
  the block, is Σ_k xblock (r, k) · W (o, k): row `r` of the x-block only. So although the last grid point's x-block is
  filled out past the array's end with contents nothing names, the rows of the product INSIDE the array — the only
  ones its write-back moves — are rows of `linear x W`, whatever those contents are. That is all the loose body
  obligation asks of the result's buffer. The four blocks' rows inside the array (14848, 14848, 14848 and 5456 of
  them) are all 50000 rows, so the result array ends at `linear x W`.
-/
import proofs.«111519_g738734375753_cont_9to1_m_264_20_alg».proof.Proof.BodyIdeal
import proofs.«111519_g738734375753_cont_9to1_m_264_20_alg».proof.Proof.ProductIdeal
import proofs.«111519_g738734375753_cont_9to1_m_264_20_alg».proof.Proof.Gen.KernelIdeal.Frame
import proofs.«111519_g738734375753_cont_9to1_m_264_20_alg».proof.Proof.Linear
import Idealize.ShloMosaic.PureOps.Ideal.Laws
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result array the run ends at -/

/-- `linear` of the two argument arrays as launched. -/
def target (c : Dev nD) : Buf (Elt Ideal) ((c : Thread nD τ).loc main_v0) :=
  Cert.Linear.linear (V m c main_arg0) (V m c main_arg1)

/-- The printed index maps and cuts, decided over the four grid points: `x`'s and the result's windows move
    together down the rows (block index the point's number) and span the features; the weights' window is the whole
    matrix; the rows a transfer moves are 14848, or what is left of the 50000. -/
theorem grid_facts : ∀ t : Fin cfg0.N,
    win0_0.index t (0 : Fin 2) = t.val ∧ win0_2.index t (0 : Fin 2) = t.val
    ∧ win0_0.index t (1 : Fin 2) = 0 ∧ win0_2.index t (1 : Fin 2) = 0
    ∧ win0_1.index t (0 : Fin 2) = 0 ∧ win0_1.index t (1 : Fin 2) = 0
    ∧ win0_0.xsize (grid0.coords t) (0 : Fin 2) = min 14848 (50000 - 14848 * t.val)
    ∧ win0_2.xsize (grid0.coords t) (0 : Fin 2) = min 14848 (50000 - 14848 * t.val)
    ∧ win0_0.xsize (grid0.coords t) (1 : Fin 2) = 256 ∧ win0_2.xsize (grid0.coords t) (1 : Fin 2) = 256 :=
  (by decide +kernel : ∀ t : Fin grid0.N, _)

/-- THE ROWS INSIDE THE ARRAY of the product of `x`'s staged block — its rows past the array's end at any contents
    `d` — and the weights are the result window's block of `linear x W`. -/
theorem cut_product (c : Dev nD) (t : Fin cfg0.N) (d : S14848x256.Idx → EReal) :
    win0_2.cut (grid0.coords t) (product (F := Ideal) (win0_0.fill (grid0.coords t) d (iblk m c 0 t)) (iblk m c 1 t))
      = (win0_2.blk t).view.read (Elt Ideal) (target m c) := by
  obtain ⟨i0, i2, z0, z2, w0, w1, s0, s2, f0, f2⟩ := grid_facts t
  funext j
  have hj0 : (j 0).val < win0_2.xsize (grid0.coords t) (0 : Fin 2) := (j 0).isLt
  have hj1 : (j 1).val < win0_2.xsize (grid0.coords t) (1 : Fin 2) := (j 1).isLt
  rw [product_eq]
  show k0_pay1 (F := Ideal) _ _ (win0_2.xinj (grid0.coords t) j) = target m c ((win0_2.blk t).view.emb j)
  rw [product_apply]
  unfold target Cert.Linear.linear
  refine Finset.sum_congr rfl fun k _ => ?_
  have hmoved : win0_0.moved (grid0.coords t) (rowAt (win0_2.xinj (grid0.coords t) j) k) = true :=
    (win0_0.moved_iff _ _).mpr fun a => by
      match a with
      | ⟨0, _⟩ => show (j 0).val < win0_0.xsize (grid0.coords t) (0 : Fin 2); rw [s0, ← s2]; exact hj0
      | ⟨1, _⟩ => show k.val < win0_0.xsize (grid0.coords t) (1 : Fin 2); rw [f0]; exact k.isLt
  have hx : win0_0.fill (grid0.coords t) d (iblk m c 0 t) (rowAt (win0_2.xinj (grid0.coords t) j) k)
      = V m c main_arg0 (Cert.Linear.xAt ((win0_2.blk t).view.emb j) k) := by
    unfold Window.fill
    rw [dif_pos hmoved]
    show V m c main_arg0 ((win0_0.blk t).view.emb _) = _
    refine congrArg (V m c main_arg0) (funext fun a => Fin.ext ?_)
    match a with
    | ⟨0, _⟩ =>
      show win0_0.index t (0 : Fin 2) * 14848 + 1 * (j 0).val = win0_2.index t (0 : Fin 2) * 14848 + 1 * (j 0).val
      rw [i0, i2]
    | ⟨1, _⟩ =>
      show win0_0.index t (1 : Fin 2) * 256 + 1 * k.val = k.val
      rw [z0, Nat.zero_mul, Nat.zero_add, Nat.one_mul]
  have hw : iblk m c 1 t (weightRowAt (win0_2.xinj (grid0.coords t) j) k)
      = V m c main_arg1 (Cert.Linear.wAt ((win0_2.blk t).view.emb j) k) := by
    show V m c main_arg1 ((win0_1.blk t).view.emb _) = _
    refine congrArg (V m c main_arg1) (funext fun a => Fin.ext ?_)
    match a with
    | ⟨0, _⟩ =>
      show win0_1.index t (0 : Fin 2) * 256 + 1 * (j 1).val = win0_2.index t (1 : Fin 2) * 256 + 1 * (j 1).val
      rw [w0, z2]
    | ⟨1, _⟩ =>
      show win0_1.index t (1 : Fin 2) * 256 + 1 * k.val = k.val
      rw [w1, Nat.zero_mul, Nat.zero_add, Nat.one_mul]
  rw [hx, hw]

/-! ## The proof data -/

/-- The proof data on core `c`: the arrays as launched; after the body `x`'s buffer at its block and the result's at
    its block of `linear x W` (each filled out past the array's end with a word nothing reads), the weights' at the
    matrix. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (target m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) :
    (dats m 0 c).after 0 t = win0_0.fill (grid0.coords t) (fun _ => (0 : EReal)) (iblk m c 0 t) := by dsimp only [dats]
theorem after_weights (c : Dev nD) (t : Fin cfg0.N) : (dats m 0 c).after 1 t = iblk m c 1 t := by dsimp only [dats]
theorem after_result (c : Dev nD) (t : Fin cfg0.N) :
    (dats m 0 c).after 2 t = win0_2.fill (grid0.coords t) (fun _ => (0 : EReal)) ((win0_2.blk t).view.read (Elt Ideal) (target m c)) := by
  dsimp only [dats]

/-- `x`'s buffer is fetched at every point: it holds the block on the rows inside the array, `d` past them. -/
theorem before_rows (c : Dev nD) (t : Fin cfg0.N) (d) :
    (dats m 0 c).before 0 t d = win0_0.fill (grid0.coords t) d (iblk m c 0 t) := by
  unfold Dat.before; rw [if_pos (fetch0_0 t)]; rfl
/-- The weights' buffer holds the matrix at every point, fetched there or not. -/
theorem before_weights (c : Dev nD) (t : Fin cfg0.N) (d) : (dats m 0 c).before 1 t d = iblk m c 1 t :=
  before0_1_of m (dats m 0 c) (A_eq m c 1) (after_weights m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: `x`'s and the result's buffers stated on the rows inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_rows, before_weights]
  rw [show (dats m 0 c).Φ t.succ = (dats m 0 c).Φ t.castSucc from rfl,
    show (dats m 0 c).owesAt () t.succ = (dats m 0 c).owesAt () t.castSucc from rfl,
    after_rows, after_weights, after_result, win0_0.cut_fill, win0_2.cut_fill]
  iintro ⟨HΦ, Ho, ⟨%d0, H0⟩, ⟨%d1, H1⟩, ⟨%d2, H2⟩⟩
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists product (F := Ideal) (win0_0.fill (grid0.coords t) d0 (iblk m c 0 t)) (iblk m c 1 t)
  rw [← cut_product m c t d0, win0_2.fill_cut]
  iexact H2

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, every array of the pipeline at what the library computes from
    the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame claim's post: `x` and the weights end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-! ## From the blocks to the array -/

/-- What point `t` writes back is the result window's block of `linear x W`. -/
theorem flushed_eq (c : Dev nD) (t : Fin cfg0.N) :
    (dats m 0 c).flushed 2 t = ((cfg0.win 2).blk t).view.read (Elt Ideal) (target m c) := by
  show (cfg0.win 2).cut (grid0.coords t) ((dats m 0 c).after 2 t) = _
  rw [after_result]
  exact win0_2.cut_fill _ _ _

/-- An entry of the result array is in point `t`'s block iff its row is among the block's rows inside the array
    (every feature is: the blocks span them). -/
theorem mem_block (t : Fin cfg0.N) (i : S50000x256.Idx) :
    i ∈ ((cfg0.win 2).blk t).view.set ↔ t.val * 14848 ≤ (i 0).val ∧ (i 0).val < t.val * 14848 + min 14848 (50000 - 14848 * t.val) := by
  obtain ⟨i0, i2, z0, z2, w0, w1, s0, s2, f0, f2⟩ := grid_facts t
  show i ∈ ((View.whole main_v0).slice (win0_2.rect t)).set ↔ _
  rw [View.set_slice_whole, Rect.mem_set_unit]
  have h1 : (i 1).val < 256 := (i 1).isLt
  constructor
  · intro h
    have h0 : win0_2.index t (0 : Fin 2) * 14848 ≤ (i 0).val ∧ (i 0).val < win0_2.index t (0 : Fin 2) * 14848 + win0_2.xsize (grid0.coords t) (0 : Fin 2) := h 0
    rw [i2, s2] at h0
    exact h0
  · intro h a
    match a with
    | ⟨0, _⟩ =>
      show win0_2.index t (0 : Fin 2) * 14848 ≤ (i 0).val ∧ (i 0).val < win0_2.index t (0 : Fin 2) * 14848 + win0_2.xsize (grid0.coords t) (0 : Fin 2)
      rw [i2, s2]
      exact h
    | ⟨1, _⟩ =>
      show win0_2.index t (1 : Fin 2) * 256 ≤ (i 1).val ∧ (i 1).val < win0_2.index t (1 : Fin 2) * 256 + win0_2.xsize (grid0.coords t) (1 : Fin 2)
      rw [z2, f2, Nat.zero_mul, Nat.zero_add]
      exact ⟨Nat.zero_le _, h1⟩

/-- Row `r` of the 50000 lies in block `r / 14848`, one of the four, among that block's rows inside the array. -/
theorem row_point (r : Nat) (hr : r < 50000) : r / 14848 < 4 := by omega
theorem row_covered (r : Nat) (hr : r < 50000) :
    r / 14848 * 14848 ≤ r ∧ r < r / 14848 * 14848 + min 14848 (50000 - 14848 * (r / 14848)) := by omega

/-- THE RESULT ARRAY after the run is `linear x W`: row `r` is written back by point `r / 14848`. -/
theorem final (c : Dev nD) : (dats m 0 c).arrAt 2 cfg0.N = target m c :=
  (dats m 0 c).arrAt_eq_of_cover 2 (target m c) (fun t _ => flushed_eq m c t) fun i => by
    have hi : (i 0).val < 50000 := (i 0).isLt
    have hN : cfg0.N = 4 := N_0
    refine ⟨⟨(i 0).val / 14848, lt_of_lt_of_eq (row_point _ hi) hN.symm⟩, flush0_2 _, ?_⟩
    rw [mem_block]
    exact row_covered _ hi

/-- The run read at the result and the arguments: the result array ends at `linear x W`, the arguments as launched. -/
theorem run : θ_run defs (onTc (τ := τ) (main (F := Ideal))) ⟨m, fun _ => 0, ρ⟩ fun r => ∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans (final m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Body

end
-- ==== Proof.Reference.lean ====
/-
  The reference computes `linear`: its transpose read at an index swaps the two coordinates, its product read at
  an index is the sum over the feature axis of `x (r, k)` times the transposed weights at `(k, o)`, which is
  `W (o, k)`.
-/
import proofs.«111519_g738734375753_cont_9to1_m_264_20_alg».proof.Proof.Gen.ReferenceIdeal.Read
import proofs.«111519_g738734375753_cont_9to1_m_264_20_alg».proof.Proof.Gen.ReferenceIdeal.Run
import proofs.«111519_g738734375753_cont_9to1_m_264_20_alg».proof.Proof.Linear

noncomputable section

namespace Cert.ReferenceIdeal.RefValue

open Cert.ReferenceIdeal Cert.ReferenceIdeal.Gen Cert.ReferenceIdeal.Read Idealize.ShloMosaic

/-- The reference's result, as a function of its two arguments, is `linear`. -/
theorem result_eq (x : (⟨S50000x256, .f32⟩ : BufTy).Contents (Elt Ideal)) (W : (⟨S256x256, .f32⟩ : BufTy).Contents (Elt Ideal)) :
    val_main_v1 (F := Ideal) x W = Cert.Linear.linear x W := by
  funext i
  rw [val_main_v1_apply]
  unfold Cert.Linear.linear
  refine Finset.sum_congr rfl fun k _ => ?_
  rw [val_main_v0_apply]
  have e0 : lidx_main_v1 i k = Cert.Linear.xAt i k := funext fun a => by
    match a with
    | ⟨0, _⟩ => rfl
    | ⟨1, _⟩ => rfl
  have e1 : idx_main_v0 (ridx_main_v1 i k) = Cert.Linear.wAt i k := funext fun a => by
    match a with
    | ⟨0, _⟩ => rfl
    | ⟨1, _⟩ => rfl
  rw [e0, e1]

end Cert.ReferenceIdeal.RefValue

end
-- ==== Proof.lean ====
/-
  A bias-free linear layer, `out = x @ Wᵀ` with `x` of 50000 rows by 256 features and `W` of 256 by 256: a Pallas
  kernel that streams `x` through in four blocks of 14848 rows (the last overhanging the array: only its 5456 rows
  inside are fetched and written back), multiplying each on the matrix unit by the resident, untransposed weights
  over the shared feature axis, against the jnp reference that transposes the weights and takes one whole product.

  Over the extended reals both are  out (r, o) = Σ_{k < 256} x (r, k) · W (o, k)  (`Cert.Linear.linear`), term for
  term: no law beyond reading each product as its sum is used, so the inputs' finiteness is not. The kernel's side is
  Proof/ValueIdeal.lean (a row of a product depends on that row of its left factor only, so the unnamed rows past the
  array's end never reach a row that is written back; the four blocks' rows inside the array are all the rows), the
  reference's Proof/Reference.lean over its run read back one operation at a time. The printed kernel's own frame
  is Proof/FrameBits.lean; the idealization rewrote nothing, so `preserves` has no conjunct.
-/
import proofs.«111519_g738734375753_cont_9to1_m_264_20_alg».proof.Defs
import proofs.«111519_g738734375753_cont_9to1_m_264_20_alg».proof.Proof.Gen.Kernel
import proofs.«111519_g738734375753_cont_9to1_m_264_20_alg».proof.Proof.Gen.KernelIdeal
import proofs.«111519_g738734375753_cont_9to1_m_264_20_alg».proof.Proof.Gen.ReferenceIdeal
import proofs.«111519_g738734375753_cont_9to1_m_264_20_alg».proof.Proof.Gen.Pre_finite_inputs
import proofs.«111519_g738734375753_cont_9to1_m_264_20_alg».proof.Proof.FrameBits
import proofs.«111519_g738734375753_cont_9to1_m_264_20_alg».proof.Proof.ValueIdeal
import proofs.«111519_g738734375753_cont_9to1_m_264_20_alg».proof.Proof.Reference
import Idealize.ShloMosaic.Adequacy
import Idealize.ShloMosaic.Init

noncomputable section

namespace Cert.Proof

open Idealize.ShloMosaic Idealize.SL.Sem

/-- The printed kernel runs to the end and leaves its arguments unchanged. -/
theorem frame_kernel : Cert.frame_Kernel := fun m ρ _ => Cert.Kernel.Body.frame (F := Bits) m ρ

/-- So does its idealization. -/
theorem frame_ideal : Cert.frame_KernelIdeal := fun m ρ _ => Cert.KernelIdeal.Body.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on `x` and `W`, the idealized kernel's result array and the reference's both end at
    `linear x W`. -/
theorem algebraic : Cert.algebraic_KernelIdeal_ReferenceIdeal := by
  intro m ρ m' ρ' _ hagree
  refine ⟨fun c => Cert.KernelIdeal.Body.target m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
